-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x1x256x256 : Shape := ⟨4, ![32, 1, 256, 256]⟩
abbrev S32x1x1x256 : Shape := ⟨4, ![32, 1, 1, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S32x1x256x256 : S_.BroadcastsInDim S32x1x256x256 (![] : Fin 0 → Fin S32x1x256x256.rank)
  reducesTo_S32x1x256x256_S_d0_1_2_3 : S32x1x256x256.ReducesTo [0, 1, 2, 3] S_
  bcast_S_S32x1x1x256 : S_.BroadcastsInDim S32x1x1x256 (![] : Fin 0 → Fin S32x1x1x256.rank)
  reducesTo_S32x1x1x256_S_d0_1_2_3 : S32x1x1x256.ReducesTo [0, 1, 2, 3] S_

variable [Facts]

def fn {F : FTy → Type} [FloatOps F] (main_arg0 : FVec F S32x4096x256 .f32) (main_arg1 : FVec F S32x1x256x256 .f32) (main_arg2 : FVec F S32x1x1x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x1x256x256 .f32 := Host.absf main_arg1
  let main_cst_0 : FVec F S_ .f32 := constant S_ .f32 0x7F800000#32
  let main_v5 : FVec F S32x1x256x256 .f32 := broadcastInDim S32x1x256x256 ![] bcast_S_S32x1x256x256 main_cst_0
  let main_v6 : IVec S32x1x256x256 1 := cmpf .olt main_v4 main_v5
  let main_c_1 : IVec S_ 1 := constantI S_ 1 1#1
  let main_v7 : IVec S_ 1 := (fun x v => Host.reduce IntOp.andi x v reducesTo_S32x1x256x256_S_d0_1_2_3 h_S_) main_v6 main_c_1
  let main_v8 : IVec S_ 1 := andi main_v3 main_v7
  let main_v9 : FVec F S32x1x1x256 .f32 := Host.absf main_arg2
  let main_cst_2 : FVec F S_ .f32 := constant S_ .f32 0x7F800000#32
  let main_v10 : FVec F S32x1x1x256 .f32 := broadcastInDim S32x1x1x256 ![] bcast_S_S32x1x1x256 main_cst_2
  let main_v11 : IVec S32x1x1x256 1 := cmpf .olt main_v9 main_v10
  let main_c_3 : IVec S_ 1 := constantI S_ 1 1#1
  let main_v12 : IVec S_ 1 := (fun x v => Host.reduce IntOp.andi x v reducesTo_S32x1x1x256_S_d0_1_2_3 h_S_) main_v11 main_c_3
  let main_v13 : IVec S_ 1 := andi main_v8 main_v12
  main_v13
-- ==== Kernel.lean ====
abbrev S32x4096x256 : Shape := ⟨3, ![32, 4096, 256]⟩
abbrev S32x1x256x256 : Shape := ⟨4, ![32, 1, 256, 256]⟩
abbrev S32x1x1x256 : Shape := ⟨4, ![32, 1, 1, 256]⟩
abbrev S32x256x256 : Shape := ⟨3, ![32, 256, 256]⟩
abbrev S32x1x256 : Shape := ⟨3, ![32, 1, 256]⟩
abbrev S1x4096x256 : Shape := ⟨3, ![1, 4096, 256]⟩
abbrev S1x256x256 : Shape := ⟨3, ![1, 256, 256]⟩
abbrev S1x1x256 : Shape := ⟨3, ![1, 1, 256]⟩
abbrev S4096x256 : Shape := ⟨2, ![4096, 256]⟩
abbrev S256x256 : Shape := ⟨2, ![256, 256]⟩
abbrev S256 : Shape := ⟨1, ![256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S32x4096x256, .f32⟩
  | .hbm, ⟨1, _⟩ => ⟨S32x1x256x256, .f32⟩
  | .hbm, ⟨2, _⟩ => ⟨S32x1x1x256, .f32⟩
  | .hbm, ⟨3, _⟩ => ⟨S32x256x256, .f32⟩
  | .hbm, ⟨4, _⟩ => ⟨S32x1x256, .f32⟩
  | .hbm, ⟨5, _⟩ => ⟨S32x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x4096x256, .f32⟩
  | .local _ .vmem, ⟨7, _⟩ => ⟨S1x4096x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x1x256x256_S32x256x256 : S32x1x256x256.ShapeCasts S32x256x256
  shapeCasts_S32x1x1x256_S32x1x256 : S32x1x1x256.ShapeCasts S32x1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S4096x256 : S1x256.Broadcasts S4096x256
  shapeCasts_S4096x256_S1x4096x256 : S4096x256.ShapeCasts S1x4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x4096x256.size a
  hwx0_0 : ∀ i : grid0.Coords, EltTy.bits .f32 = 32 ∨ (Rect.block (s := S32x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S32x256x256.size a
  hwx0_1 : ∀ i : grid0.Coords, EltTy.bits .f32 = 32 ∨ (Rect.block (s := S32x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x256.size a
  hwx0_2 : ∀ i : grid0.Coords, EltTy.bits .f32 = 32 ∨ (Rect.block (s := S32x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x256.size a ≤ S32x4096x256.size a
  hwx0_3 : ∀ i : grid0.Coords, EltTy.bits .f32 = 32 ∨ (Rect.block (s := S32x4096x256) S1x4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x1x256x256 : Shape := ⟨4, ![32, 1, 256, 256]⟩
abbrev S32x1x1x256 : Shape := ⟨4, ![32, 1, 1, 256]⟩
abbrev S32x256x256 : Shape := ⟨3, ![32, 256, 256]⟩
abbrev S32x1x256 : Shape := ⟨3, ![32, 1, 256]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x1x256x256, .f32⟩
  | .hbm, ⟨2, _⟩ => ⟨S32x1x1x256, .f32⟩
  | .hbm, ⟨3, _⟩ => ⟨S32x256x256, .f32⟩
  | .hbm, ⟨4, _⟩ => ⟨S32x4096x256, .f32⟩
  | .hbm, ⟨5, _⟩ => ⟨S32x1x256, .f32⟩
  | .hbm, ⟨6, _⟩ => ⟨S_, .f32⟩
  | .hbm, ⟨7, _⟩ => ⟨S32x1x256, .f32⟩
  | .hbm, ⟨8, _⟩ => ⟨S32x1x256, .f32⟩
  | .hbm, ⟨9, _⟩ => ⟨S32x4096x256, .f32⟩
  | .hbm, ⟨10, _⟩ => ⟨S32x4096x256, .f32⟩
  | .hbm, ⟨11, _⟩ => ⟨S_, .f32⟩
  | .hbm, ⟨12, _⟩ => ⟨S32x4096x256, .f32⟩
  | .hbm, ⟨13, _⟩ => ⟨S32x4096x256, .f32⟩
  | .hbm, ⟨14, _⟩ => ⟨S32x4096x256, .f32⟩
  | .hbm, ⟨15, _⟩ => ⟨S32x4096x256, .f32⟩
  | .hbm, ⟨16, _⟩ => ⟨S32x4096x256, .i1⟩
  | .hbm, ⟨17, _⟩ => ⟨S32x4096x256, .f32⟩
  | .hbm, ⟨18, _⟩ => ⟨S32x4096x256, .f32⟩
  | .hbm, ⟨19, _⟩ => ⟨S32x4096x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | .hbm, ⟨23, _⟩ => ⟨S32x4096x256, .f32⟩
  | .hbm, ⟨24, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v7 : Ref sig .tc := ⟨.hbm, 24, rfl⟩

abbrev nD : Nat := 1
abbrev τ : Topo := Topo.v7x

variable {F : FTy → Type} [FloatOps F]

class Facts₀ : Prop where
  shapeCasts_S32x1x256x256_S32x256x256 : S32x1x256x256.ShapeCasts S32x256x256
  shapeCasts_S32x1x1x256_S32x1x256 : S32x1x1x256.ShapeCasts S32x1x256
  bcast_S_S32x1x256 : S_.BroadcastsInDim S32x1x256 (![] : Fin 0 → Fin S32x1x256.rank)
  bcast_S32x1x256_S32x4096x256_0_1_2 : S32x1x256.BroadcastsInDim S32x4096x256 (![0, 1, 2] : Fin 3 → Fin S32x4096x256.rank)
  bcast_S_S32x4096x256 : S_.BroadcastsInDim S32x4096x256 (![] : Fin 0 → Fin S32x4096x256.rank)
  dot_S32x4096x256_S32x256x256_S32x4096x256_2_1_1_2_0_0_wf : DotDims.WF S32x4096x256 S32x256x256 S32x4096x256 [2] [1] [1] [2] [0] [0]

variable [Facts₀]

def dot_S32x4096x256_S32x256x256_S32x4096x256_2_1_1_2_0_0 : DotDims S32x4096x256 S32x256x256 S32x4096x256 where
  lhsContracting := [2]
  rhsContracting := [1]
  lhsNonContracting := [1]
  rhsNonContracting := [2]
  lhsBatch := [0]
  rhsBatch := [0]
  wf := dot_S32x4096x256_S32x256x256_S32x4096x256_2_1_1_2_0_0_wf

class Facts : Prop extends Facts₀ where

variable [Facts]
-- ==== Proof.DenseSpec.lean ====
/-
  The function both programs compute, on the extended reals, index by index.

  For each of the 32 variables `v`, each of the 4096 rows `r` and each of the 256 output features `o`,

      z(v, r, o) = (∑ k < 256, x[v, r, k] · w[v, 0, k, o]) + 256 · bias[v, 0, 0, o]
      out[v, r, o] = softplus (z(v, r, o)),

  where softplus is computed the way jax spells it, as log-add-exp of `z` and `0`:
  `max z 0 + log1p (exp (-|z - 0|))`, behind a test "is z - 0 different from itself" that selects `z + 0`
  instead. On the extended reals nothing differs from itself, so the test never fires; it is kept in the
  definition only so that both programs' terms meet it without any case analysis. The sum over `k` is a
  finite sum in a commutative monoid, so no order or grouping of it matters, and since both programs form
  the same products and the same sum, no finiteness of the inputs is needed anywhere.
-/
import Idealize.ShloMosaic.PureOps.Ideal
import Idealize.ShloMosaic.PureOps.Ideal.Laws
import Idealize.ShloMosaic.Lib.ValueIdx

noncomputable section

namespace Cert.GroupedDense

open Idealize.ShloMosaic Idealize.ShloMosaic.ValueIdx

/-- The factor on the bias: the f32 pattern of 256 (the same word in both programs, never evaluated). -/
abbrev biasScale : EReal := Ideal.ofBits .f32 0x43800000#32

/-- The f32 zero pattern, as both programs write it. -/
abbrev zeroWord : EReal := Ideal.ofBits .f32 0x00000000#32

/-- jax's softplus, `logaddexp z 0`, operation by operation on an extended real. -/
def softplus (z : EReal) : EReal :=
  Scalar.select (Ideal.cmp .une (z - zeroWord) (z - zeroWord)) (z + zeroWord)
    (max z zeroWord + Ideal.log1p (Ideal.exp (-(max (z - zeroWord) (-(z - zeroWord))))))

/-- The pre-activation at variable `v`, row `r`, output feature `o`: the row of `x` against the column of
    the variable's weight matrix, plus 256 times the variable's bias at that feature. -/
def preact (x : (⟨3, ![32, 4096, 256]⟩ : Shape).Idx → EReal) (w : (⟨4, ![32, 1, 256, 256]⟩ : Shape).Idx → EReal)
    (b : (⟨4, ![32, 1, 1, 256]⟩ : Shape).Idx → EReal) (v : Fin 32) (r : Fin 4096) (o : Fin 256) : EReal :=
  (∑ k : Fin 256, x (ix3 v r k) * w (ix4 v (0 : Fin 1) k o)) + biasScale * b (ix4 v (0 : Fin 1) (0 : Fin 1) o)

/-- The whole result array as one function of the three argument arrays. -/
def dense (x : (⟨3, ![32, 4096, 256]⟩ : Shape).Idx → EReal) (w : (⟨4, ![32, 1, 256, 256]⟩ : Shape).Idx → EReal)
    (b : (⟨4, ![32, 1, 1, 256]⟩ : Shape).Idx → EReal) : (⟨3, ![32, 4096, 256]⟩ : Shape).Idx → EReal :=
  fun i => softplus (preact x w b (i 0) (i 1) (i 2))

/-- Subtracting from the zero word is negating: `0 - a = -a` on the extended reals. -/
theorem zeroWord_sub (a : EReal) : zeroWord - a = -a := by
  show Ideal.ofBits .f32 0x00000000#32 - a = -a
  rw [Ideal.ofBits_zero_f32, sub_eq_add_neg, zero_add]

end Cert.GroupedDense

end
-- ==== Proof.KernelBody.lean ====
/-
  What the kernel body stores, read at one entry of its output block.

  At a grid point the body holds a [1, 4096, 256] block of `x`, a [1, 256, 256] block of the weights and a [1, 1, 256]
  block of the bias. Dropping the leading unit axes, it multiplies the 4096 × 256 rows by the 256 × 256 weight matrix into
  a zero accumulator (the change of float format before the product is the identity on the extended reals), adds the
  bias row scaled by 256 to every row, and applies softplus entry by entry. So the stored entry (0, r, o) is
  `softplus ((∑ k, xblock (0, r, k) · wblock (0, k, o)) + 256 · bblock (0, 0, o))`.
  The kernel writes the negation inside softplus as a subtraction from the zero word; that is the one step that is
  not the specification's own text, and `0 - a = -a` closes it.
-/
import proofs.«105279_j61323543052434_1_alg».proof.Proof.Gen.KernelIdeal.Skeleton
import proofs.«105279_j61323543052434_1_alg».proof.Proof.DenseSpec
import Idealize.ShloMosaic.Lib.Pipeline.Value
import Idealize.ShloMosaic.Lib.ValueIdx
import Idealize.ShloMosaic.PureOps.Ideal.Laws

noncomputable section

namespace Cert.GroupedDense.Body

open Cert.KernelIdeal Cert.KernelIdeal.Gen Idealize.ShloMosaic Idealize.ShloMosaic.ValueIdx Cert.GroupedDense

/-! ## The layout steps, each at an index -/

/-- The `x` block without its unit axis: row `r`, column `k` is the block at (0, r, k). -/
theorem rows_of_block (x0 : Vec Ideal S1x4096x256 .f32) (h : S1x4096x256.ShapeCasts S4096x256) (r : Fin 4096) (k : Fin 256) :
    shapeCast S4096x256 x0 h (ix2 r k) = x0 (ix3 (0 : Fin 1) r k) :=
  shapeCast_apply x0 h (ix2 r k) (ix3 (0 : Fin 1) r k) (by
    rewrite [Shape.rowMajor_val_three, Shape.rowMajor_val_two]
    show (0 * 4096 + r.val) * 256 + k.val = r.val * 256 + k.val
    omega)

/-- The weight block without its unit axis: row `k`, column `o` is the block at (0, k, o). -/
theorem matrix_of_block (x1 : Vec Ideal S1x256x256 .f32) (h : S1x256x256.ShapeCasts S256x256) (k : Fin 256) (o : Fin 256) :
    shapeCast S256x256 x1 h (ix2 k o) = x1 (ix3 (0 : Fin 1) k o) :=
  shapeCast_apply x1 h (ix2 k o) (ix3 (0 : Fin 1) k o) (by
    rewrite [Shape.rowMajor_val_three, Shape.rowMajor_val_two]
    show (0 * 256 + k.val) * 256 + o.val = k.val * 256 + o.val
    omega)

/-- The bias block as a vector of 256 features: feature `o` is the block at (0, 0, o). -/
theorem features_of_block (x2 : Vec Ideal S1x1x256 .f32) (h : S1x1x256.ShapeCasts S256) (o : Fin 256) :
    shapeCast S256 x2 h (ix1 o) = x2 (ix3 (0 : Fin 1) (0 : Fin 1) o) :=
  shapeCast_apply x2 h (ix1 o) (ix3 (0 : Fin 1) (0 : Fin 1) o) (by
    rewrite [Shape.rowMajor_val_three, Shape.rowMajor_val_one]
    show (0 * 1 + 0) * 256 + o.val = o.val
    omega)

/-- A vector of 256 features laid as one row and repeated down the 4096 rows reads feature `o` at (r, o). -/
theorem row_repeated (v : FVec Ideal S256 .f32) (h1 : S256.ShapeCasts S1x256) (h2 : S1x256.Broadcasts S4096x256)
    (r : Fin 4096) (o : Fin 256) :
    broadcastTo S4096x256 (shapeCast S1x256 v h1) h2 (ix2 r o) = v (ix1 o) := by
  rw [broadcastTo_apply (shapeCast S1x256 v h1) h2 (ix2 r o) (ix2 (0 : Fin 1) o) (fun a => by
    match a with
    | ⟨0, _⟩ => show 0 = if (1 : Nat) = 1 then 0 else r.val; rw [if_pos rfl]
    | ⟨1, _⟩ => show o.val = if (256 : Nat) = 1 then 0 else o.val; rw [if_neg (by decide)])]
  exact shapeCast_apply v h1 (ix2 (0 : Fin 1) o) (ix1 o) (by
    rewrite [Shape.rowMajor_val_one, Shape.rowMajor_val_two]
    show o.val = 0 * 256 + o.val
    omega)

/-- The computed [4096, 256] values stored as a [1, 4096, 256] block: entry (z, r, o) is the value at (r, o). -/
theorem block_of_rows (v : FVec Ideal S4096x256 .f32) (h : S4096x256.ShapeCasts S1x4096x256) (z : Fin 1) (r : Fin 4096) (o : Fin 256) :
    shapeCast S1x4096x256 v h (ix3 z r o) = v (ix2 r o) :=
  shapeCast_apply v h (ix3 z r o) (ix2 r o) (by
    rewrite [Shape.rowMajor_val_three, Shape.rowMajor_val_two]
    have hz : z.val < 1 := z.isLt
    show r.val * 256 + o.val = (z.val * 4096 + r.val) * 256 + o.val
    omega)

/-! ## The matrix product at an entry -/

theorem lhs_row (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl

theorem lhs_contr (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q

theorem rhs_contr (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q

theorem rhs_col (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The product of the rows by the weight matrix into a zero accumulator, at entry (r, o): the sum over the 256
    contracted positions of row `r` times column `o`. -/
theorem product_entry (a : FVec Ideal S4096x256 .bf16) (b : FVec Ideal S256x256 .bf16) (r : Fin 4096) (o : Fin 256) :
    matmul dot_S4096x256_S256x256_S4096x256_1_0_0_1_n_n none a b (constant (F := Ideal) S4096x256 .f32 0x00000000#32) (ix2 r o)
      = ∑ k : Fin 256, a (ix2 r k) * b (ix2 k o) := by
  simp only [matmul]
  rw [Ideal.matmul_constant_zero_apply,
    ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r o)
      ((contrEquiv1 dot_S4096x256_S256x256_S4096x256_1_0_0_1_n_n 256 rfl rfl).symm k) = ix2 r k := funext fun a => Fin.ext (by
    match a with
    | ⟨0, _⟩ => exact lhs_row _ _
    | ⟨1, _⟩ => exact (lhs_contr _ _).trans hk)
  have er : dot_S4096x256_S256x256_S4096x256_1_0_0_1_n_n.rhsIdx (ix2 r o)
      ((contrEquiv1 dot_S4096x256_S256x256_S4096x256_1_0_0_1_n_n 256 rfl rfl).symm k) = ix2 k o := funext fun a => Fin.ext (by
    match a with
    | ⟨0, _⟩ => exact (rhs_contr _ _).trans hk
    | ⟨1, _⟩ => exact rhs_col _ _)
  rw [el, er]

/-! ## Softplus as the kernel spells it -/

/-- The kernel's softplus — its test written with the ordered "not equal", its negation as a subtraction from the zero
    word — is the specification's. -/
theorem softplus_body_form (z : EReal) :
    Scalar.select (Ideal.cmp .one (z - zeroWord) (z - zeroWord)) (z + zeroWord)
      (max z zeroWord + Ideal.log1p (Ideal.exp (zeroWord - max (z - zeroWord) (-(z - zeroWord))))) = softplus z := by
  rw [zeroWord_sub]
  rfl

/-! ## The stored entry -/

/-- Entry (z, r, o) of what the body stores, from the three blocks it loaded. -/
theorem stored_entry (x0 : Vec Ideal S1x4096x256 .f32) (x1 : Vec Ideal S1x256x256 .f32) (x2 : Vec Ideal S1x1x256 .f32)
    (z : Fin 1) (r : Fin 4096) (o : Fin 256) :
    k0_pay1 (F := Ideal) x0 x1 x2 (ix3 z r o)
      = softplus ((∑ k : Fin 256, x0 (ix3 (0 : Fin 1) r k) * x1 (ix3 (0 : Fin 1) k o))
          + biasScale * x2 (ix3 (0 : Fin 1) (0 : Fin 1) o)) := by
  unfold k0_pay1
  rw [block_of_rows]
  refine (softplus_body_form _).trans (congrArg softplus ?_)
  refine congrArg₂ (· + ·) ?_ ?_
  · refine (product_entry _ _ r o).trans (Finset.sum_congr rfl fun k _ => ?_)
    exact congrArg₂ (· * ·) (rows_of_block x0 _ r k) (matrix_of_block x1 _ k o)
  · refine (row_repeated _ _ _ r o).trans ?_
    exact congrArg (biasScale * ·) (features_of_block x2 _ o)

end Cert.GroupedDense.Body

end
-- ==== Proof.KernelValue.lean ====
/-
  From the kernel's 32 blocks to its result array.

  Grid point `t` (one per variable) stages block `t` of `x` (rows of variable `t`), block `t` of the weights
  reshaped to [32, 256, 256] and block `t` of the bias reshaped to [32, 1, 256], and writes block `t` of the result.
  Every window's block index is (t, 0, 0), so a block's entry (z, r, o) sits at array position (t + z, r, o) with
  `z = 0`; the two reshapes only drop a unit axis, so the reshaped arrays at (v, k, o) and (v, 0, o) are the arguments
  at (v, 0, k, o) and (v, 0, 0, o). With the stored entry of the body this makes what point `t` writes back block `t`
  of `dense` of the three arguments, and since the 32 blocks cover the result array (index `i` lies in block `i 0`),
  the array ends holding `dense` everywhere.
-/
import proofs.«105279_j61323543052434_1_alg».proof.Proof.Gen.KernelIdeal.Value
import proofs.«105279_j61323543052434_1_alg».proof.Proof.KernelBody
import Idealize.ShloMosaic.Lib.StableHlo.Run

set_option maxRecDepth 16384

noncomputable section

namespace Cert.GroupedDense.Blocks

open Cert.KernelIdeal Cert.KernelIdeal.Gen Idealize.ShloMosaic Idealize.ShloMosaic.TcCoe Idealize.SL.Sem
open Idealize.ShloMosaic.ValueIdx Idealize.ShloMosaic.StableHlo Cert.GroupedDense
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-! ## The two arrays the host reshapes before the launch -/

/-- The weights as the launch finds them: the argument with its unit axis dropped. -/
theorem weights_at_launch (c : Dev nD) :
    (V m c main_v0 : S32x256x256.Idx → EReal)
      = shapeCast S32x256x256 (m ((c : Thread nD τ).loc main_arg1)) Facts₀.shapeCasts_S32x1x256x256_S32x256x256 := by
  dsimp only [Gen.V, Gen.hostOps0]
  after_results
  rfl

/-- The bias as the launch finds it: the argument with one unit axis dropped. -/
theorem bias_at_launch (c : Dev nD) :
    (V m c main_v1 : S32x1x256.Idx → EReal)
      = shapeCast S32x1x256 (m ((c : Thread nD τ).loc main_arg2)) Facts₀.shapeCasts_S32x1x1x256_S32x1x256 := by
  dsimp only [Gen.V, Gen.hostOps0]
  after_results
  rfl

/-- The reshaped weights at (v, k, o) are the argument at (v, 0, k, o). -/
theorem weights_entry (w : S32x1x256x256.Idx → EReal) (h : S32x1x256x256.ShapeCasts S32x256x256) (i : S32x256x256.Idx)
    (v : Fin 32) (k o : Fin 256) (h0 : (i 0).val = v.val) (h1 : (i 1).val = k.val) (h2 : (i 2).val = o.val) :
    shapeCast S32x256x256 w h i = w (ix4 v (0 : Fin 1) k o) :=
  shapeCast_apply w h i (ix4 v (0 : Fin 1) k o) (by
    rewrite [Shape.rowMajor_val_four, Shape.rowMajor_val_three]
    show ((v.val * 1 + 0) * 256 + k.val) * 256 + o.val = ((i 0).val * 256 + (i 1).val) * 256 + (i 2).val
    rw [h0, h1, h2]; omega)

/-- The reshaped bias at (v, 0, o) is the argument at (v, 0, 0, o). -/
theorem bias_entry (b : S32x1x1x256.Idx → EReal) (h : S32x1x1x256.ShapeCasts S32x1x256) (i : S32x1x256.Idx)
    (v : Fin 32) (o : Fin 256) (h0 : (i 0).val = v.val) (h2 : (i 2).val = o.val) :
    shapeCast S32x1x256 b h i = b (ix4 v (0 : Fin 1) (0 : Fin 1) o) :=
  shapeCast_apply b h i (ix4 v (0 : Fin 1) (0 : Fin 1) o) (by
    rewrite [Shape.rowMajor_val_four, Shape.rowMajor_val_three]
    have h1 : (i 1).val < 1 := (i 1).isLt
    show ((v.val * 1 + 0) * 1 + 0) * 256 + o.val = ((i 0).val * 1 + (i 1).val) * 256 + (i 2).val
    rw [h0, h2]; omega)

/-! ## Where each window's block sits -/

/-- Every window's block index at grid point `t` is (t, 0, 0): decided over the 32 points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The `x` block at point `t`, entry (z, r, k), is `x` at (t, r, k). -/
theorem x_block_entry (c : Dev nD) (t : Fin cfg0.N) (y : S1x4096x256.Idx) (i : S32x4096x256.Idx)
    (h0 : (i 0).val = t.val) (h1 : (i 1).val = (y 1).val) (h2 : (i 2).val = (y 2).val) :
    (iblk m c 0 t : Vec Ideal S1x4096x256 .f32) y = (m ((c : Thread nD τ).loc main_arg0) : S32x4096x256.Idx → EReal) i := by
  obtain ⟨⟨e0, e1, e2⟩, -, -, -⟩ := block_index t
  have hy : (y 0).val < 1 := (y 0).isLt
  unfold iblk
  rw [View.read_apply]
  show V m c main_arg0 _ = _
  rw [V_main_arg0]
  refine congrArg (m ((c : Thread nD τ).loc main_arg0) : S32x4096x256.Idx → EReal) (funext fun a => Fin.ext ?_)
  match a with
  | ⟨0, _⟩ => show win0_0.index t (0 : Fin 3) * 1 + 1 * (y 0).val = (i 0).val; omega
  | ⟨1, _⟩ => show win0_0.index t (1 : Fin 3) * 4096 + 1 * (y 1).val = (i 1).val; omega
  | ⟨2, _⟩ => show win0_0.index t (2 : Fin 3) * 256 + 1 * (y 2).val = (i 2).val; omega

/-- The weight block at point `t`, entry (z, k, o), is the weights argument at (t, 0, k, o). -/
theorem w_block_entry (c : Dev nD) (t : Fin cfg0.N) (y : S1x256x256.Idx) (v : Fin 32) (k o : Fin 256)
    (h0 : v.val = t.val) (h1 : k.val = (y 1).val) (h2 : o.val = (y 2).val) :
    (iblk m c 1 t : Vec Ideal S1x256x256 .f32) y
      = (m ((c : Thread nD τ).loc main_arg1) : S32x1x256x256.Idx → EReal) (ix4 v (0 : Fin 1) k o) := by
  obtain ⟨-, ⟨e0, e1, e2⟩, -, -⟩ := block_index t
  have hy : (y 0).val < 1 := (y 0).isLt
  unfold iblk
  rw [View.read_apply]
  show (V m c main_v0 : S32x256x256.Idx → EReal) _ = _
  rw [weights_at_launch]
  refine weights_entry _ _ _ v k o ?_ ?_ ?_
  · show win0_1.index t (0 : Fin 3) * 1 + 1 * (y 0).val = v.val; omega
  · show win0_1.index t (1 : Fin 3) * 256 + 1 * (y 1).val = k.val; omega
  · show win0_1.index t (2 : Fin 3) * 256 + 1 * (y 2).val = o.val; omega

/-- The bias block at point `t`, entry (z, z', o), is the bias argument at (t, 0, 0, o). -/
theorem b_block_entry (c : Dev nD) (t : Fin cfg0.N) (y : S1x1x256.Idx) (v : Fin 32) (o : Fin 256)
    (h0 : v.val = t.val) (h2 : o.val = (y 2).val) :
    (iblk m c 2 t : Vec Ideal S1x1x256 .f32) y
      = (m ((c : Thread nD τ).loc main_arg2) : S32x1x1x256.Idx → EReal) (ix4 v (0 : Fin 1) (0 : Fin 1) o) := by
  obtain ⟨-, -, ⟨e0, e1, e2⟩, -⟩ := block_index t
  have hy : (y 0).val < 1 := (y 0).isLt
  unfold iblk
  rw [View.read_apply]
  show (V m c main_v1 : S32x1x256.Idx → EReal) _ = _
  rw [bias_at_launch]
  refine bias_entry _ _ _ v o ?_ ?_
  · show win0_2.index t (0 : Fin 3) * 1 + 1 * (y 0).val = v.val; omega
  · show win0_2.index t (2 : Fin 3) * 256 + 1 * (y 2).val = o.val; omega

/-! ## What a point writes back, and the whole array -/

/-- The stored entry at an index of the block, whatever its unit coordinate. -/
theorem stored_at (x0 : Vec Ideal S1x4096x256 .f32) (x1 : Vec Ideal S1x256x256 .f32) (x2 : Vec Ideal S1x1x256 .f32)
    (j : S1x4096x256.Idx) :
    k0_pay1 (F := Ideal) x0 x1 x2 j
      = softplus ((∑ k : Fin 256, x0 (ix3 (0 : Fin 1) (j 1) k) * x1 (ix3 (0 : Fin 1) k (j 2)))
          + biasScale * x2 (ix3 (0 : Fin 1) (0 : Fin 1) (j 2))) := by
  obtain ⟨z, r, o, rfl⟩ : ∃ (z : Fin 1) (r : Fin 4096) (o : Fin 256), j = ix3 z r o := ⟨j 0, j 1, j 2, eq_ix3 j⟩
  exact Body.stored_entry x0 x1 x2 z r o

/-- What grid point `t` writes back is block `t` of `dense` of the three arguments. -/
theorem written_back (c : Dev nD) (t : Fin cfg0.N) :
    (dats m 0 c).flushed 3 t = ((cfg0.win 3).blk t).view.read (Elt Ideal)
      (dense (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1x4096x256) zero_offsets, View.ld_unit_zero (S := S1x256x256) zero_offsets,
    View.ld_unit_zero (S := S1x1x256) zero_offsets]
  obtain ⟨-, -, -, ⟨e0, e1, e2⟩⟩ := block_index t
  have hN : cfg0.N = 32 := N_0
  have ht : t.val < 32 := hN ▸ t.isLt
  funext j
  have hj0 : (j 0).val < 1 := (j 0).isLt
  have hj1 : (j 1).val < 4096 := (j 1).isLt
  have hj2 : (j 2).val < 256 := (j 2).isLt
  show k0_pay1 (F := Ideal) (iblk m c 0 t) (iblk m c 1 t) (iblk m c 2 t) j
    = dense _ _ _ (((cfg0.win 3).blk t).view.emb j)
  refine (stored_at _ _ _ j).trans (congrArg softplus ?_)
  have p0 : ((((cfg0.win 3).blk t).view.emb j) 0).val = t.val := by
    show win0_3.index t (0 : Fin 3) * 1 + 1 * (j 0).val = t.val; omega
  have p1 : ((((cfg0.win 3).blk t).view.emb j) 1).val = (j 1).val := by
    show win0_3.index t (1 : Fin 3) * 4096 + 1 * (j 1).val = (j 1).val; omega
  have p2 : ((((cfg0.win 3).blk t).view.emb j) 2).val = (j 2).val := by
    show win0_3.index t (2 : Fin 3) * 256 + 1 * (j 2).val = (j 2).val; omega
  unfold preact
  refine congrArg₂ (· + ·) (Finset.sum_congr rfl fun k _ => congrArg₂ (· * ·) ?_ ?_) (congrArg (biasScale * ·) ?_)
  · exact x_block_entry m c t _ _ p0 p1 rfl
  · exact w_block_entry m c t _ _ k _ p0 rfl p2
  · exact b_block_entry m c t _ _ _ p0 p2

/-- Index `i` of the result array lies in the block of grid point `i 0`. -/
theorem covered (i : S32x4096x256.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 4096 := (i 1).isLt
  have hi2 : (i 2).val < 256 := (i 2).isLt
  obtain ⟨t, ht⟩ : ∃ t : Fin cfg0.N, t.val = (i 0).val := ⟨⟨(i 0).val, by rw [hN]; exact hi0⟩, rfl⟩
  refine ⟨t, flush0_3 t, ?_⟩
  obtain ⟨-, -, -, ⟨e0, e1, e2⟩⟩ := block_index t
  show i ∈ ((View.whole main_v2).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 4096 ≤ (i 1).val ∧ (i 1).val < win0_3.index t (1 : Fin 3) * 4096 + 4096
    omega
  | ⟨2, _⟩ =>
    show win0_3.index t (2 : Fin 3) * 256 ≤ (i 2).val ∧ (i 2).val < win0_3.index t (2 : Fin 3) * 256 + 256
    omega

/-- The result array after the run is `dense` of the three arguments. -/
theorem result_array (c : Dev nD) :
    (dats m 0 c).arrAt 3 cfg0.N
      = dense (m ((c : Thread nD τ).loc main_arg0)) (m ((c : Thread nD τ).loc main_arg1)) (m ((c : Thread nD τ).loc main_arg2)) :=
  (dats m 0 c).arrAt_eq_of_cover 3 _ (fun t _ => written_back m c t) covered

/-- The kernel's run: it ends with the result array at `dense` of the arguments and the arguments unchanged. -/
theorem run : θ_run defs (onTc (τ := τ) (main (F := Ideal))) ⟨m, fun _ => 0, ρ⟩ fun r => ∀ c : Dev nD,
      r.2.mem ((c : Thread nD τ).loc main_v2)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.GroupedDense.Blocks

end
-- ==== Proof.RefIsDense.lean ====
/-
  The reference's result term, read one operation at a time, is `dense` of its three arguments.

  The generated read-at-an-index lemmas give the einsum at (v, r, o) as the sum over `k` of `x` at (v, r, k) times the
  reshaped weights at (v, k, o), and the reshape [32,1,256,256] → [32,256,256] reads (v, k, o) at (v, 0, k, o) (the
  row-major positions agree); the bias is reshaped [32,1,1,256] → [32,1,256], scaled by the splat of 256 and
  broadcast along the rows. What is left is softplus, applied pointwise.
-/
import proofs.«105279_j61323543052434_1_alg».proof.Proof.Gen.ReferenceIdeal.Read
import proofs.«105279_j61323543052434_1_alg».proof.Proof.DenseSpec

noncomputable section

namespace Cert.GroupedDense.Ref

open Cert.ReferenceIdeal Cert.ReferenceIdeal.Read Idealize.ShloMosaic Idealize.ShloMosaic.ValueIdx Cert.GroupedDense

/-- The left operand of the contraction at (v, r, o), k is `x` at (v, r, k). -/
theorem lidx_eq (i : S32x4096x256.Idx) (k : Fin 256) : lidx_main_v1 i k = ix3 (i 0) (i 1) k :=
  funext fun a => by match a with | ⟨0, _⟩ => rfl | ⟨1, _⟩ => rfl | ⟨2, _⟩ => rfl

/-- The right operand at (v, r, o), k is the reshaped weights at (v, k, o), which is the weights at (v, 0, k, o):
    position (v·256 + k)·256 + o of the row-major order on both sides. -/
theorem ridx_eq (i : S32x4096x256.Idx) (k : Fin 256) : idx_main_v0 (ridx_main_v1 i k) = ix4 (i 0) (0 : Fin 1) k (i 2) := by
  have h0 : (i 0).val < 32 := (i 0).isLt
  have h2 : (i 2).val < 256 := (i 2).isLt
  have hk : k.val < 256 := k.isLt
  funext a
  apply Fin.ext
  match a with
  | ⟨0, _⟩ => show (((i 0).val * 256 + k.val) * 256 + (i 2).val) / 65536 = (i 0).val; omega
  | ⟨1, _⟩ => rfl
  | ⟨2, _⟩ => show (((i 0).val * 256 + k.val) * 256 + (i 2).val) / 256 % 256 = k.val; omega
  | ⟨3, _⟩ => show (((i 0).val * 256 + k.val) * 256 + (i 2).val) % 256 = (i 2).val; omega

/-- The bias broadcast along the rows reads (v, r, o) at (v, 0, o) of the reshaped bias, which is the bias at (v, 0, 0, o). -/
theorem bidx_eq (i : S32x4096x256.Idx) : idx_main_v2 (idx_main_v5 i) = ix4 (i 0) (0 : Fin 1) (0 : Fin 1) (i 2) := by
  have h0 : (i 0).val < 32 := (i 0).isLt
  have h2 : (i 2).val < 256 := (i 2).isLt
  funext a
  apply Fin.ext
  match a with
  | ⟨0, _⟩ => show (((i 0).val * 1 + 0) * 256 + (i 2).val) / 256 = (i 0).val; omega
  | ⟨1, _⟩ => rfl
  | ⟨2, _⟩ => rfl
  | ⟨3, _⟩ => show (((i 0).val * 1 + 0) * 256 + (i 2).val) % 256 = (i 2).val; omega

/-- Before the activation the reference holds the pre-activation of `DenseSpec`. -/
theorem preact_eq (x0 : (⟨S32x4096x256, .f32⟩ : BufTy).Contents (Elt Ideal)) (x1 : (⟨S32x1x256x256, .f32⟩ : BufTy).Contents (Elt Ideal))
    (x2 : (⟨S32x1x1x256, .f32⟩ : BufTy).Contents (Elt Ideal)) (i : S32x4096x256.Idx) :
    val_main_v6 (F := Ideal) x0 x1 x2 i = preact x0 x1 x2 (i 0) (i 1) (i 2) := by
  rw [val_main_v6_apply, val_main_v1_apply, val_main_v5_apply, val_main_v4_apply, val_main_v3_apply, val_main_cst_apply,
    val_main_v2_apply, bidx_eq]
  simp only [val_main_v0_apply, lidx_eq, ridx_eq]
  rfl

/-- The reference's result is `dense` of its arguments. -/
theorem result_eq (x0 : (⟨S32x4096x256, .f32⟩ : BufTy).Contents (Elt Ideal)) (x1 : (⟨S32x1x256x256, .f32⟩ : BufTy).Contents (Elt Ideal))
    (x2 : (⟨S32x1x1x256, .f32⟩ : BufTy).Contents (Elt Ideal)) :
    val_main_v7 (F := Ideal) x0 x1 x2 = dense x0 x1 x2 := by
  funext i
  show softplus (val_main_v6 (F := Ideal) x0 x1 x2 i) = _
  rw [preact_eq]
  rfl

end Cert.GroupedDense.Ref

end
-- ==== Proof.lean ====
/-
  The certificate of the per-variable dense layer with softplus.

  Kernel and reference compute, for each of 32 variables, `softplus (x[v] · W[v] + 256 · bias[v])`: the kernel one
  variable per grid point, with the matrix product on the matrix unit in a narrower float format (no change on the
  extended reals) and into a zero accumulator; the reference as one batched contraction over all variables. Both
  form, at result index (v, r, o), the sum over the 256 contracted positions of the same products, add the same
  scaled bias and apply the same softplus, so the two result arrays are one function of the arguments
  (`Cert.GroupedDense.dense`), with no use of the inputs' finiteness:
  * `Cert.GroupedDense.Blocks.run` — the kernel's run ends with its result array at `dense` of the arguments;
  * `Cert.GroupedDense.Ref.result_eq` — the reference's result term is `dense` of the arguments.
  The three frames are the generated ones (the reference's is its run with the result dropped), and the idealization
  rewrote nothing, so there is nothing to preserve.
-/
import proofs.«105279_j61323543052434_1_alg».proof.Defs
import proofs.«105279_j61323543052434_1_alg».proof.Proof.Gen.Kernel
import proofs.«105279_j61323543052434_1_alg».proof.Proof.Gen.Kernel.Skeleton
import proofs.«105279_j61323543052434_1_alg».proof.Proof.Gen.Kernel.Launch
import proofs.«105279_j61323543052434_1_alg».proof.Proof.Gen.Kernel.Points
import proofs.«105279_j61323543052434_1_alg».proof.Proof.Gen.Kernel.Frame
import proofs.«105279_j61323543052434_1_alg».proof.Proof.Gen.KernelIdeal
import proofs.«105279_j61323543052434_1_alg».proof.Proof.Gen.KernelIdeal.Skeleton
import proofs.«105279_j61323543052434_1_alg».proof.Proof.Gen.KernelIdeal.Launch
import proofs.«105279_j61323543052434_1_alg».proof.Proof.Gen.KernelIdeal.Points
import proofs.«105279_j61323543052434_1_alg».proof.Proof.Gen.KernelIdeal.Frame
import proofs.«105279_j61323543052434_1_alg».proof.Proof.Gen.ReferenceIdeal
import proofs.«105279_j61323543052434_1_alg».proof.Proof.Gen.KernelIdeal.Value
import proofs.«105279_j61323543052434_1_alg».proof.Proof.Gen.ReferenceIdeal.Run
import proofs.«105279_j61323543052434_1_alg».proof.Proof.Gen.ReferenceIdeal.Read
import proofs.«105279_j61323543052434_1_alg».proof.Proof.Gen.Pre_finite_inputs
import proofs.«105279_j61323543052434_1_alg».proof.Proof.KernelValue
import proofs.«105279_j61323543052434_1_alg».proof.Proof.RefIsDense
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the result array at `dense` of the arguments. -/
theorem algebraic : Cert.algebraic_KernelIdeal_ReferenceIdeal := by
  intro m ρ m' ρ' _ hagree
  refine ⟨_, Cert.GroupedDense.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.GroupedDense.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
